-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts]

def fn {F : FTy → Type} [FloatOps F] (main_arg0 : FVec F S8388608x4 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  main_v3
-- ==== Kernel.lean ====
abbrev S8388608x4 : Shape := ⟨2, ![8388608, 4]⟩
abbrev S262144x128 : Shape := ⟨2, ![262144, 128]⟩
abbrev S8192x128 : Shape := ⟨2, ![8192, 128]⟩

abbrev nBuf : Space → Nat
  | .hbm => 4
  | .vmem => 4
  | .smem => 0
  | _ => 0

abbrev bufTy : (tb : Table) → Fin (tcTables nBuf tb) → BufTy
  | .hbm, ⟨0, _⟩ => ⟨S8388608x4, .f32⟩
  | .hbm, ⟨1, _⟩ => ⟨S262144x128, .f32⟩
  | .hbm, ⟨2, _⟩ => ⟨S262144x128, .f32⟩
  | .hbm, ⟨3, _⟩ => ⟨S8388608x4, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8388608x4_S262144x128 : S8388608x4.ShapeCasts S262144x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S262144x128_S8388608x4 : S262144x128.ShapeCasts S8388608x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x4 : Shape := ⟨2, ![8388608, 4]⟩

abbrev nBuf : Space → Nat
  | .hbm => 2
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where

variable [Facts₀]

class Facts : Prop extends Facts₀ where

variable [Facts]
-- ==== Proof.CosBlocks.lean ====
/-
  The region of the idealized kernel, read as a value.

  The region works on the array of shape [262144, 128] that the host reshape leaves. Its grid has 32 points; point
  `t` takes rows 8192·t … 8192·t + 8191 (all 128 lanes) of the input array into a block, applies the cosine to every
  entry of the block, and writes the result back to the same rows of the output array. So what point `t` writes back
  is block `t` of ONE whole-array function, `cosRows` of the input array: the cosine entry by entry. The 32 blocks
  tile the 262144 rows (row `r` lies in the block of point `r / 8192`), so after the last point the output array
  is `cosRows` of the input array, at every index.
-/
import proofs.«129040_j52037823758458_1_alg».proof.Proof.Gen.KernelIdeal.Frame
import Idealize.ShloMosaic.Lib.Pipeline.Value

set_option maxRecDepth 16384

noncomputable section

namespace Cert.KernelIdeal.CosValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The cosine of every entry of a [262144, 128] array. -/
def cosRows (a : S262144x128.Idx → Elt F .f32) : S262144x128.Idx → Elt F .f32 := fun i => FloatOps.cos (a i)

/-- The offset of the body's one load and one store is zero on both axes. -/
theorem zero_offset : (![0, 0] : Fin 2 → Nat) = fun _ => 0 := funext fun a => by fin_cases a <;> rfl

/-- The body's arithmetic: a shape cast of a block to its own shape changes nothing, so what is stored is the
    cosine of the loaded block, entry by entry. -/
theorem payload_eq (x0 : Vec F S8192x128 .f32) : k0_pay1 x0 = cos x0 := by
  show cos (shapeCast S8192x128 x0 shapeCasts_S8192x128_S8192x128) = cos x0
  rw [shapeCast_self]

/-- The two index maps over the 32 points: the input block and the output block of point `t` sit at the same
    place, block row `t`, block column 0. -/
theorem block_index : ∀ t : Fin cfg0.N, win0_0.index t (0 : Fin 2) = win0_1.index t (0 : Fin 2)
    ∧ win0_0.index t (1 : Fin 2) = win0_1.index t (1 : Fin 2)
    ∧ win0_1.index t (0 : Fin 2) = t.val
    ∧ win0_1.index t (1 : Fin 2) = 0 :=
  (by decide +kernel : ∀ t : Fin grid0.N, _)

/-- What point `t` writes back is block `t` of `cosRows` of the input array as the region finds it. -/
theorem flushed_eq (c : Dev nD) (t : Fin cfg0.N) :
    (dats m 0 c).flushed 1 t = ((cfg0.win 1).blk t).view.read (Elt F) (cosRows (V m c main_v0)) := by
  show (cfg0.win 1).cut (grid0.coords t) ((dats m 0 c).after 1 t) = _
  rw [after0_1]
  unfold out0_1
  rw [View.canon_unit_zero zero_offset]
  simp only [View.ld_unit_zero (S := S8192x128) zero_offset]
  rw [payload_eq]
  obtain ⟨e0, e1, -, -⟩ := block_index t
  funext j
  show FloatOps.cos (V m c main_v0 (((cfg0.win 0).blk t).view.emb j)) = FloatOps.cos (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 8192 + 1 * (j 0).val = win0_1.index t (0 : Fin 2) * 8192 + 1 * (j 0).val; omega
    | ⟨1, _⟩ => show win0_0.index t (1 : Fin 2) * 128 + 1 * (j 1).val = win0_1.index t (1 : Fin 2) * 128 + 1 * (j 1).val; omega
  rw [h0]

/-- An index of the output array is in point `t`'s block iff each coordinate is in the block's range on its axis. -/
theorem mem_block (t : Fin cfg0.N) (i : S262144x128.Idx) :
    i ∈ ((cfg0.win 1).blk t).view.set ↔ ∀ a : Fin 2, win0_1.index t a * S8192x128.size a ≤ (i a).val ∧ (i a).val < win0_1.index t a * S8192x128.size a + S8192x128.size a := by
  show i ∈ ((View.whole main_v1).slice (win0_1.rect t)).set ↔ _
  rw [View.set_slice_whole, Rect.mem_set_unit]
  exact Iff.rfl

/-- Every index of the output array is written back by some point: row `r` by point `r / 8192`. -/
theorem covered (i : S262144x128.Idx) :
    ∃ t : Fin cfg0.N, (cfg0.win 1).flush t = true ∧ i ∈ ((cfg0.win 1).blk t).view.set := by
  have hi0 : (i 0).val < 262144 := (i 0).isLt
  have hi1 : (i 1).val < 128 := (i 1).isLt
  have hN : (i 0).val / 8192 < grid0.N := by rw [N_0]; omega
  obtain ⟨-, -, e2, e3⟩ := block_index ⟨(i 0).val / 8192, hN⟩
  have e2' : win0_1.index ⟨(i 0).val / 8192, hN⟩ (0 : Fin 2) = (i 0).val / 8192 := e2
  refine ⟨⟨(i 0).val / 8192, hN⟩, flush0_1 _, ?_⟩
  rw [mem_block]
  intro a
  match a with
  | ⟨0, _⟩ => show win0_1.index ⟨(i 0).val / 8192, hN⟩ (0 : Fin 2) * 8192 ≤ (i 0).val ∧ (i 0).val < win0_1.index ⟨(i 0).val / 8192, hN⟩ (0 : Fin 2) * 8192 + 8192; omega
  | ⟨1, _⟩ => show win0_1.index ⟨(i 0).val / 8192, hN⟩ (1 : Fin 2) * 128 ≤ (i 1).val ∧ (i 1).val < win0_1.index ⟨(i 0).val / 8192, hN⟩ (1 : Fin 2) * 128 + 128; omega

/-- The output array after the last point: `cosRows` of the input array as the region finds it. -/
theorem final (c : Dev nD) : (dats m 0 c).arrAt 1 cfg0.N = cosRows (V m c main_v0) :=
  (dats m 0 c).arrAt_eq_of_cover 1 (cosRows (V m c main_v0)) (fun t _ => flushed_eq m c t) covered

end Cert.KernelIdeal.CosValue

end
-- ==== Proof.CosRun.lean ====
/-
  The idealized kernel's result as ONE function of its argument, and its run.

  The program reshapes the argument `x` of shape [8388608, 4] to [262144, 128], runs the region on it, and reshapes
  the region's output back to [8388608, 4]. The region leaves the cosine of every entry (`final`), so the result is
  `viaRows x`: reshape, cosine entry by entry, reshape back. A reshape only relabels positions (entry `j` of the
  result is the entry of the operand at the same row-major position), so an entry-by-entry function commutes with
  it, and the reshape to [262144, 128] followed by the reshape back is the identity: `viaRows x` is the cosine of
  `x` entry by entry (`viaRows_eq`).
-/
import proofs.«129040_j52037823758458_1_alg».proof.Proof.CosBlocks
import Idealize.ShloMosaic.Lib.StableHlo.Run

set_option maxRecDepth 16384

noncomputable section

namespace Cert.KernelIdeal.CosValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Reshape to [262144, 128], the cosine of every entry, reshape back to [8388608, 4]. -/
def viaRows (x : S8388608x4.Idx → Elt F .f32) : S8388608x4.Idx → Elt F .f32 :=
  shapeCast S8388608x4 (cosRows (shapeCast S262144x128 x shapeCasts_S8388608x4_S262144x128)) shapeCasts_S262144x128_S8388608x4

/-- The cosine commutes with the relabeling and the two reshapes are inverse to each other, so `viaRows` is the
    cosine entry by entry. -/
theorem viaRows_eq (x : S8388608x4.Idx → Elt F .f32) : viaRows x = fun i => FloatOps.cos (x i) := by
  have hcomm : viaRows x = fun i => FloatOps.cos
      (shapeCast S8388608x4 (shapeCast S262144x128 x shapeCasts_S8388608x4_S262144x128) shapeCasts_S262144x128_S8388608x4 i) := rfl
  rw [hcomm, shapeCast_shapeCast]

/-- The input array as the region finds it: the host reshape of the argument. -/
theorem entry (c : Dev nD) :
    (V m c main_v0 : S262144x128.Idx → Elt F .f32)
      = shapeCast S262144x128 (m ((c : Thread nD τ).loc main_arg0) : S8388608x4.Idx → Elt F .f32) shapeCasts_S8388608x4_S262144x128 := by
  show StableHlo.after hostOps0 (fun b => m (c, b)) (Proc.devRef .tc main_v0) = _
  after_results
  rfl

/-- The program's result buffer after the host reshape that follows the region: that reshape of the region's
    output array, which holds the cosine of every entry of the reshaped argument. -/
theorem result (c : Dev nD) :
    (Pipeline.afterTail₀ cfgs (dats m) 0 (V0 m) [hostOps1] c main_v2 : S8388608x4.Idx → Elt F .f32)
      = viaRows (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = cosRows (shapeCast S262144x128 (m ((c : Thread nD τ).loc main_arg0) : S8388608x4.Idx → Elt F .f32) shapeCasts_S8388608x4_S262144x128) :=
    (Pipeline.withArrays_arr spec0 launch0.win.arr_inj c _ _ 1).trans ((final m c).trans (congrArg cosRows (entry m c)))
  exact congrArg (fun a : S262144x128.Idx → Elt F .f32 => shapeCast S8388608x4 a shapeCasts_S262144x128_S8388608x4) hw

/-- Every weakly fair execution of the idealized kernel terminates with its result at `viaRows` of the argument
    and the argument unchanged. -/
theorem run : θ_run defs (onTc (τ := τ) (main (F := F))) ⟨m, fun _ => 0, ρ⟩ fun r => ∀ c : Dev nD,
      r.2.mem ((c.tc : Thread nD τ).loc main_v2) = viaRows (m ((c.tc : Thread nD τ).loc main_arg0))
      ∧ r.2.mem ((c.tc : Thread nD τ).loc main_arg0) = m ((c.tc : Thread nD τ).loc main_arg0) :=
  (θ_run defs _ _).mono (fun r h c =>
    ⟨((h c).2 main_v2 (Pipeline.mem_restRefs_of main_v2 (by decide) (by decide))).trans (result m c),
     ((h c).2 main_arg0 (Pipeline.mem_restRefs_of main_arg0 (by decide) (by decide))).trans (W_main_arg0 m (dats m) c)⟩)
    (run_main m ρ)

end Cert.KernelIdeal.CosValue

end
-- ==== Proof.lean ====
/-
  The proof of `Cert.Claim`: the kernel applies the cosine to its argument through a [262144, 128] view, block of
  8192 rows by block, and reshapes back; the reference applies the cosine to the argument directly.

  Over the extended reals both are the SAME function of the argument `x`, entry by entry `cos (x i)` (the real cosine on the
  reals, one fixed value at each infinity): the kernel's `math.cos` and the host's `stablehlo.cosine` denote one
  function there, and the kernel's two reshapes are relabelings inverse to each other, under which an entry-by-entry
  function is unchanged (`viaRows_eq`). No arithmetic law is involved, so the finiteness of the input is never used.

  The three frames: the two kernel programs' are generated; the reference's is its generated run with the result
  dropped. The idealization rewrote no operation, so `preserves` is `True`.
-/
import proofs.«129040_j52037823758458_1_alg».proof.Defs
import proofs.«129040_j52037823758458_1_alg».proof.Proof.Gen.Kernel
import proofs.«129040_j52037823758458_1_alg».proof.Proof.Gen.Kernel.Skeleton
import proofs.«129040_j52037823758458_1_alg».proof.Proof.Gen.Kernel.Launch
import proofs.«129040_j52037823758458_1_alg».proof.Proof.Gen.Kernel.Points
import proofs.«129040_j52037823758458_1_alg».proof.Proof.Gen.Kernel.Frame
import proofs.«129040_j52037823758458_1_alg».proof.Proof.Gen.KernelIdeal
import proofs.«129040_j52037823758458_1_alg».proof.Proof.Gen.KernelIdeal.Skeleton
import proofs.«129040_j52037823758458_1_alg».proof.Proof.Gen.KernelIdeal.Launch
import proofs.«129040_j52037823758458_1_alg».proof.Proof.Gen.KernelIdeal.Points
import proofs.«129040_j52037823758458_1_alg».proof.Proof.Gen.KernelIdeal.Frame
import proofs.«129040_j52037823758458_1_alg».proof.Proof.Gen.ReferenceIdeal
import proofs.«129040_j52037823758458_1_alg».proof.Proof.Gen.Pre_finite_inputs
import proofs.«129040_j52037823758458_1_alg».proof.Proof.Gen.ReferenceIdeal.Run
import proofs.«129040_j52037823758458_1_alg».proof.Proof.Gen.ReferenceIdeal.Read
import proofs.«129040_j52037823758458_1_alg».proof.Proof.CosRun
import Idealize.ShloMosaic.Adequacy
import Idealize.ShloMosaic.Init

noncomputable section

namespace Cert.Proof

open Idealize.ShloMosaic Idealize.ShloMosaic.TcCoe Idealize.SL.Sem

/-- The reference's result, the host cosine of the argument, is the kernel's function of the argument: entry by
    entry both are the cosine on the extended reals. -/
theorem reference_eq (x : FVec Ideal Cert.ReferenceIdeal.S8388608x4 .f32) :
    Host.cos x = Cert.KernelIdeal.CosValue.viaRows (F := Ideal) x := by
  rw [Cert.ReferenceIdeal.Read.val_main_v0_eq, Cert.KernelIdeal.CosValue.viaRows_eq]
  funext i
  rw [Cert.ReferenceIdeal.Read.val_main_v0_apply, Ideal.hostUnary_cos_def, Ideal.cos_def]

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the argument, the idealized kernel ends with its result at `viaRows` of the argument
    and the idealized reference at the host cosine of the same argument: one function (`reference_eq`). -/
theorem algebraic : Cert.algebraic_KernelIdeal_ReferenceIdeal := by
  intro m ρ m' ρ' _ hagree
  refine ⟨fun c => Cert.KernelIdeal.CosValue.viaRows (F := Ideal)
      (m ((c.tc : Thread Cert.KernelIdeal.nD Cert.KernelIdeal.τ).loc Cert.KernelIdeal.main_arg0)),
    Cert.KernelIdeal.CosValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact reference_eq _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
